-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S8192x8192 : Shape := ⟨2, ![8192, 8192]⟩
abbrev S64x8192x2 : Shape := ⟨3, ![64, 8192, 2]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S64x8192x2 : S_.BroadcastsInDim S64x8192x2 (![] : Fin 0 → Fin S64x8192x2.rank)
  reducesTo_S64x8192x2_S_d0_1_2 : S64x8192x2.ReducesTo [0, 1, 2] S_

variable [Facts]

def fn {F : FTy → Type} [FloatOps F] (main_arg0 : FVec F S64x8192 .f32) (main_arg1 : IVec S8192x8192 32) (main_arg2 : FVec F S64x8192x2 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S64x8192x2 .f32 := Host.absf main_arg2
  let main_cst_0 : FVec F S_ .f32 := constant S_ .f32 0x7F800000#32
  let main_v5 : FVec F S64x8192x2 .f32 := broadcastInDim S64x8192x2 ![] bcast_S_S64x8192x2 main_cst_0
  let main_v6 : IVec S64x8192x2 1 := cmpf .olt main_v4 main_v5
  let main_c_1 : IVec S_ 1 := constantI S_ 1 1#1
  let main_v7 : IVec S_ 1 := (fun x v => Host.reduce IntOp.andi x v reducesTo_S64x8192x2_S_d0_1_2 h_S_) main_v6 main_c_1
  let main_v8 : IVec S_ 1 := andi main_v3 main_v7
  main_v8
-- ==== Kernel.lean ====
abbrev S64x8192 : Shape := ⟨2, ![64, 8192]⟩
abbrev S8192x8192 : Shape := ⟨2, ![8192, 8192]⟩
abbrev S64x8192x2 : Shape := ⟨3, ![64, 8192, 2]⟩
abbrev S64x8192x1 : Shape := ⟨3, ![64, 8192, 1]⟩
abbrev S8192x64 : Shape := ⟨2, ![8192, 64]⟩
abbrev S256x8192 : Shape := ⟨2, ![256, 8192]⟩
abbrev S256x64 : Shape := ⟨2, ![256, 64]⟩
abbrev S64x256 : Shape := ⟨2, ![64, 256]⟩
abbrev S256x2048 : Shape := ⟨2, ![256, 2048]⟩
abbrev S256x16x128 : Shape := ⟨3, ![256, 16, 128]⟩
abbrev S256x16 : Shape := ⟨2, ![256, 16]⟩
abbrev S256x16x1 : Shape := ⟨3, ![256, 16, 1]⟩
abbrev S64x2048 : Shape := ⟨2, ![64, 2048]⟩

abbrev nBuf : Space → Nat
  | .hbm => 11
  | .vmem => 9
  | .smem => 0
  | _ => 0

abbrev bufTy : (tb : Table) → Fin (tcTables nBuf tb) → BufTy
  | .hbm, ⟨0, _⟩ => ⟨S64x8192, .f32⟩
  | .hbm, ⟨1, _⟩ => ⟨S8192x8192, .i32⟩
  | .hbm, ⟨2, _⟩ => ⟨S64x8192x2, .f32⟩
  | .hbm, ⟨3, _⟩ => ⟨S64x8192x1, .f32⟩
  | .hbm, ⟨4, _⟩ => ⟨S64x8192, .f32⟩
  | .hbm, ⟨5, _⟩ => ⟨S8192x64, .f32⟩
  | .hbm, ⟨6, _⟩ => ⟨S64x8192x1, .f32⟩
  | .hbm, ⟨7, _⟩ => ⟨S64x8192, .f32⟩
  | .hbm, ⟨8, _⟩ => ⟨S8192x64, .f32⟩
  | .hbm, ⟨9, _⟩ => ⟨S64x8192, .bf16⟩
  | .hbm, ⟨10, _⟩ => ⟨S64x8192, .f32⟩
  | .local _ .vmem, ⟨0, _⟩ => ⟨S64x8192, .bf16⟩
  | .local _ .vmem, ⟨1, _⟩ => ⟨S256x8192, .i32⟩
  | .local _ .vmem, ⟨2, _⟩ => ⟨S256x8192, .i32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S64x256, .f32⟩
  | .local _ .vmem, ⟨8, _⟩ => ⟨S64x256, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S64x8192x2_S64x8192x1_0_0_0 : S64x8192x2.Slices ![0, 0, 0] S64x8192x1
  shapeCasts_S64x8192x1_S64x8192 : S64x8192x1.ShapeCasts S64x8192
  transposes_S64x8192_S8192x64_1_0 : S64x8192.Transposes [1, 0] S8192x64
  slices_S64x8192x2_S64x8192x1_0_0_1 : S64x8192x2.Slices ![0, 0, 1] S64x8192x1
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S256x8192_S256x2048_0_0 : ∀ a, (![0, 0] : Fin 2 → Nat) a + S256x2048.size a ≤ S256x8192.size a
  h_S256x2048 : 0 < S256x2048.numel
  shapeCasts_S256x2048_S256x16x128 : S256x2048.ShapeCasts S256x16x128
  slices_S256x64_o0_0_S256x16 : S256x64.Slices ![0, 0] S256x16
  shapeCasts_S256x16_S256x16x1 : S256x16.ShapeCasts S256x16x1
  broadcasts_S256x16x1_S256x16x128 : S256x16x1.Broadcasts S256x16x128
  shapeCasts_S256x16x128_S256x2048 : S256x16x128.ShapeCasts S256x2048
  slices_S64x8192_o0_0_S64x2048 : S64x8192.Slices ![0, 0] S64x2048
  inb_S256x8192_S256x2048_0_2048 : ∀ a, (![0, 2048] : Fin 2 → Nat) a + S256x2048.size a ≤ S256x8192.size a
  slices_S256x64_o0_16_S256x16 : S256x64.Slices ![0, 16] S256x16
  slices_S64x8192_o0_2048_S64x2048 : S64x8192.Slices ![0, 2048] S64x2048
  inb_S256x8192_S256x2048_0_4096 : ∀ a, (![0, 4096] : Fin 2 → Nat) a + S256x2048.size a ≤ S256x8192.size a
  slices_S256x64_o0_32_S256x16 : S256x64.Slices ![0, 32] S256x16
  slices_S64x8192_o0_4096_S64x2048 : S64x8192.Slices ![0, 4096] S64x2048
  inb_S256x8192_S256x2048_0_6144 : ∀ a, (![0, 6144] : Fin 2 → Nat) a + S256x2048.size a ≤ S256x8192.size a
  slices_S256x64_o0_48_S256x16 : S256x64.Slices ![0, 48] S256x16
  slices_S64x8192_o0_6144_S64x2048 : S64x8192.Slices ![0, 6144] S64x2048
  inb_S64x256_S64x256_0_0 : ∀ a, (![0, 0] : Fin 2 → Nat) a + S64x256.size a ≤ S64x256.size a
  h_S64x256 : 0 < S64x256.numel
  dot_S64x2048_S256x2048_S64x256_1_1_0_0_n_n_wf : DotDims.WF S64x2048 S256x2048 S64x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x8192.size a
  hwx0_0 : ∀ i : grid0.Coords, EltTy.bits .bf16 = 32 ∨ (Rect.block (s := S64x8192) S64x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .i32 = 32 ∨ (Rect.block (s := S8192x8192) S256x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S8192x64.size a
  hwx0_2 : ∀ i : grid0.Coords, EltTy.bits .f32 = 32 ∨ (Rect.block (s := S8192x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S8192x64.size a
  hwx0_3 : ∀ i : grid0.Coords, EltTy.bits .f32 = 32 ∨ (Rect.block (s := S8192x64) S256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x8192.size a
  hwx0_4 : ∀ i : grid0.Coords, EltTy.bits .f32 = 32 ∨ (Rect.block (s := S64x8192) S64x256.size (cc0_transform_4 i) (hinb0_4 i)).WholeWords (EltTy.packing .f32)

variable [Facts₀]

def dot_S64x2048_S256x2048_S64x256_1_1_0_0_n_n : DotDims S64x2048 S256x2048 S64x256 where
  lhsContracting := [1]
  rhsContracting := [1]
  lhsNonContracting := [0]
  rhsNonContracting := [0]
  lhsBatch := []
  rhsBatch := []
  wf := dot_S64x2048_S256x2048_S64x256_1_1_0_0_n_n_wf

abbrev win0_0 : Pipeline.Window sig grid0 :=
  Pipeline.Window.ofSpec (Memref.whole main_v6) S64x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x8192 : Shape := ⟨2, ![64, 8192]⟩
abbrev S8192x8192 : Shape := ⟨2, ![8192, 8192]⟩
abbrev S64x8192x2 : Shape := ⟨3, ![64, 8192, 2]⟩
abbrev S8192x64x128 : Shape := ⟨3, ![8192, 64, 128]⟩
abbrev S64x8192x1 : Shape := ⟨3, ![64, 8192, 1]⟩
abbrev S8192x64 : Shape := ⟨2, ![8192, 64]⟩
abbrev S8192x64x1 : Shape := ⟨3, ![8192, 64, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S8192x8192, .i32⟩
  | .hbm, ⟨2, _⟩ => ⟨S64x8192x2, .f32⟩
  | .hbm, ⟨3, _⟩ => ⟨S8192x64x128, .i32⟩
  | .hbm, ⟨4, _⟩ => ⟨S8192x64x128, .f32⟩
  | .hbm, ⟨5, _⟩ => ⟨S64x8192x1, .f32⟩
  | .hbm, ⟨6, _⟩ => ⟨S64x8192, .f32⟩
  | .hbm, ⟨7, _⟩ => ⟨S8192x64, .f32⟩
  | .hbm, ⟨8, _⟩ => ⟨S8192x64x1, .f32⟩
  | .hbm, ⟨9, _⟩ => ⟨S64x8192x1, .f32⟩
  | .hbm, ⟨10, _⟩ => ⟨S64x8192, .f32⟩
  | .hbm, ⟨11, _⟩ => ⟨S8192x64, .f32⟩
  | .hbm, ⟨12, _⟩ => ⟨S8192x64x1, .f32⟩
  | .hbm, ⟨13, _⟩ => ⟨S_, .f32⟩
  | .hbm, ⟨14, _⟩ => ⟨S8192x64x128, .f32⟩
  | .hbm, ⟨15, _⟩ => ⟨S8192x64x128, .f32⟩
  | .hbm, ⟨16, _⟩ => ⟨S8192x64x128, .f32⟩
  | .hbm, ⟨17, _⟩ => ⟨S8192x64x128, .f32⟩
  | .hbm, ⟨18, _⟩ => ⟨S8192x64x128, .f32⟩
  | .hbm, ⟨19, _⟩ => ⟨S8192x64x128, .f32⟩
  | .hbm, ⟨20, _⟩ => ⟨S8192x8192, .f32⟩
  | .hbm, ⟨21, _⟩ => ⟨S8192x8192, .f32⟩
  | .hbm, ⟨22, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  shapeCasts_S8192x8192_S8192x64x128 : S8192x8192.ShapeCasts S8192x64x128
  slices_S64x8192x2_S64x8192x1_0_0_0 : S64x8192x2.Slices ![0, 0, 0] S64x8192x1
  shapeCasts_S64x8192x1_S64x8192 : S64x8192x1.ShapeCasts S64x8192
  transposes_S64x8192_S8192x64_1_0 : S64x8192.Transposes [1, 0] S8192x64
  bcast_S8192x64_S8192x64x1_0_1 : S8192x64.BroadcastsInDim S8192x64x1 (![0, 1] : Fin 2 → Fin S8192x64x1.rank)
  slices_S64x8192x2_S64x8192x1_0_0_1 : S64x8192x2.Slices ![0, 0, 1] S64x8192x1
  bcast_S_S8192x64x128 : S_.BroadcastsInDim S8192x64x128 (![] : Fin 0 → Fin S8192x64x128.rank)
  bcast_S8192x64x1_S8192x64x128_0_1_2 : S8192x64x1.BroadcastsInDim S8192x64x128 (![0, 1, 2] : Fin 3 → Fin S8192x64x128.rank)
  shapeCasts_S8192x64x128_S8192x8192 : S8192x64x128.ShapeCasts S8192x8192
  transposes_S8192x8192_S8192x8192_1_0 : S8192x8192.Transposes [1, 0] S8192x8192
  dot_S64x8192_S8192x8192_S64x8192_1_0_0_1_n_n_wf : DotDims.WF S64x8192 S8192x8192 S64x8192 [1] [0] [0] [1] [] []

variable [Facts₀]

def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf

class Facts : Prop extends Facts₀ where

variable [Facts]
-- ==== Proof.WoqSpec.lean ====
/-
  A linear layer whose weights are stored as 4-bit-style integer codes, one scale and one zero point per group of 128
  consecutive input features, on the extended reals.

  The inputs are the activations x (64 rows, 8192 input features), the integer codes q (8192 output features by 8192 input
  features) and a table sz holding, for group g and output feature n, the scale sz(g, n, 0) and the zero point sz(g, n, 1).
  The weight of output feature n at input feature k is

      w(n, k) = (q(n, k) - 8) * sz(k / 128, n, 0) + sz(k / 128, n, 1)

  with the integer code read as the real number it is, and the layer's output is out(p, n) = sum over k < 8192 of
  x(p, k) * w(n, k).

  The only law of arithmetic used anywhere in this certificate is that a finite sum may be cut into consecutive chunks and
  the chunks added in order, starting from zero: addition on the extended reals is commutative and associative with unit 0
  (also at the infinities), so no finiteness of the inputs is needed.
-/
import Idealize.ShloMosaic.PureOps.Ideal
import Idealize.ShloMosaic.Lib.ValueIdx

noncomputable section

namespace Cert.Woq

open Idealize.ShloMosaic Idealize.ShloMosaic.ValueIdx

/-- One dequantized weight from its integer code, its group's scale and its group's zero point:
    (code - 8) * scale + zero point. The code is read as the integer it denotes; 8 is the midpoint of the code range. -/
def weight (q : BitVec 32) (sc zp : EReal) : EReal :=
  (FloatOps.sitofp (F := Ideal) .f32 q - Ideal.ofBits .f32 0x41000000#32) * sc + zp

/-- The group of input feature k: groups are runs of 128 consecutive input features. -/
def grp (k : Fin 8192) : Fin 64 := ⟨k.val / 128, by have := k.isLt; omega⟩

/-- The weight of output feature n at input feature k, from the code array and the scale / zero-point table. -/
def wAt (q : (⟨2, ![8192, 8192]⟩ : Shape).Idx → BitVec 32) (sz : (⟨3, ![64, 8192, 2]⟩ : Shape).Idx → EReal)
    (n k : Fin 8192) : EReal :=
  weight (q (ix2 n k)) (sz (ix3 (grp k) n (0 : Fin 2))) (sz (ix3 (grp k) n (1 : Fin 2)))

/-- The layer's output at row p and output feature n: the inner product of row p of x with the weights of n. -/
def woqAt (x : (⟨2, ![64, 8192]⟩ : Shape).Idx → EReal) (q : (⟨2, ![8192, 8192]⟩ : Shape).Idx → BitVec 32)
    (sz : (⟨3, ![64, 8192, 2]⟩ : Shape).Idx → EReal) (p : Fin 64) (n : Fin 8192) : EReal :=
  ∑ k : Fin 8192, x (ix2 p k) * wAt q sz n k

/-- The whole output array. -/
def woq (x : (⟨2, ![64, 8192]⟩ : Shape).Idx → EReal) (q : (⟨2, ![8192, 8192]⟩ : Shape).Idx → BitVec 32)
    (sz : (⟨3, ![64, 8192, 2]⟩ : Shape).Idx → EReal) : (⟨2, ![64, 8192]⟩ : Shape).Idx → EReal :=
  fun i => woqAt x q sz (i 0) (i 1)

/-- A sum over n = a + b terms is the sum of the first a terms plus the sum of the last b. -/
theorem sum_split (n a b : ℕ) (h : a + b = n) (f : Fin n → EReal) :
    ∑ k : Fin n, f k
      = ∑ j : Fin a, f ⟨j.val, by have := j.isLt; omega⟩ + ∑ j : Fin b, f ⟨a + j.val, by have := j.isLt; omega⟩ := by
  subst h
  rw [Fin.sum_univ_add]
  rfl

/-- The chunk of 2048 consecutive terms of a sum over 8192 terms that starts at position k0. -/
def chunk (f : Fin 8192 → EReal) (k0 : ℕ) (h : k0 + 2048 ≤ 8192) : EReal :=
  ∑ j : Fin 2048, f ⟨k0 + j.val, by have := j.isLt; omega⟩

/-- The four consecutive chunks, added in order onto zero, are the sum of all 8192 terms. -/
theorem sum_four_chunks (f : Fin 8192 → EReal) :
    (((0 + chunk f 0 (by decide)) + chunk f 2048 (by decide)) + chunk f 4096 (by decide)) + chunk f 6144 (by decide)
      = ∑ k : Fin 8192, f k := by
  rw [zero_add, sum_split 8192 4096 4096 rfl f,
    sum_split 4096 2048 2048 rfl (fun j : Fin 4096 => f ⟨j.val, by have := j.isLt; omega⟩),
    sum_split 4096 2048 2048 rfl (fun j : Fin 4096 => f ⟨4096 + j.val, by have := j.isLt; omega⟩), ← add_assoc]
  unfold chunk
  refine congrArg₂ (· + ·) (congrArg₂ (· + ·) (congrArg₂ (· + ·) ?_ rfl) rfl) ?_
  · exact Finset.sum_congr rfl fun j _ => congrArg f (Fin.ext (Nat.zero_add _))
  · refine Finset.sum_congr rfl fun j _ => congrArg f (Fin.ext ?_)
    show 6144 + j.val = 4096 + (2048 + j.val)
    omega

end Cert.Woq

end
-- ==== Proof.RefIsWoq.lean ====
/-
  The reference program computes the quantized linear layer of WoqSpec.

  Its last stage is a general dot product of the activations with a matrix it builds from the codes and the
  scale / zero-point table: entry (k, n) of that matrix is the dequantized weight of output feature n at input feature k.
  The matrix is built by viewing the codes as [output feature, group, position in group], subtracting 8, multiplying by
  the group's scale and adding the group's zero point (each read from the table with its first two axes exchanged and
  repeated along the position axis), flattening back to [output feature, input feature] and transposing. Reading the
  stages at an index, entry (p, n) of the result is the sum over k of x(p, k) * w(n, k).

  What has to be checked is index arithmetic only: the flat position n * 8192 + k splits as
  (n, k / 128, k % 128) and joins back to (n, k); and the table is read at (k / 128, n, 0) and (k / 128, n, 1).
-/
import proofs.«150516_j15668040696350_2_alg».proof.Proof.Gen.ReferenceIdeal.Read
import proofs.«150516_j15668040696350_2_alg».proof.Proof.WoqSpec

noncomputable section

namespace Cert.ReferenceIdeal.RefValue

open Cert.ReferenceIdeal Cert.ReferenceIdeal.Gen Cert.ReferenceIdeal.Read
open Idealize.ShloMosaic Idealize.ShloMosaic.ValueIdx Cert.Woq

/-- The left operand of the dot product at output (p, n) and contraction position k: x(p, k). -/
theorem act_index (p : Fin 64) (n k : Fin 8192) : lidx_main_v18 (ix2 p n) k = ix2 p k :=
  funext fun a => Fin.ext (by
    match a with
    | ⟨0, _⟩ => rfl
    | ⟨1, _⟩ => rfl)

/-- The code read for entry (k, n) of the weight matrix: transposed, flattened from (n, k / 128, k % 128), it is q(n, k). -/
theorem code_index (p : Fin 64) (n k : Fin 8192) :
    idx_main_v0 (idx_main_v16 (idx_main_v17 (ridx_main_v18 (ix2 p n) k))) = ix2 n k :=
  funext fun a => Fin.ext (by
    have hn := n.isLt; have hk := k.isLt
    match a with
    | ⟨0, _⟩ =>
      show (((n.val * 8192 + k.val) / 8192 * 64 + (n.val * 8192 + k.val) / 128 % 64) * 128 + (n.val * 8192 + k.val) % 128) / 8192 = n.val
      omega
    | ⟨1, _⟩ =>
      show (((n.val * 8192 + k.val) / 8192 * 64 + (n.val * 8192 + k.val) / 128 % 64) * 128 + (n.val * 8192 + k.val) % 128) % 8192 = k.val
      omega)

/-- The scale read for entry (k, n): the table at (group of k, n, 0). -/
theorem scale_index (p : Fin 64) (n k : Fin 8192) :
    idx_main_v2 (idx_main_v3 (idx_main_v4 (idx_main_v5 (idx_main_v12 (idx_main_v16 (idx_main_v17 (ridx_main_v18 (ix2 p n) k)))))))
      = ix3 (grp k) n (0 : Fin 2) :=
  funext fun a => Fin.ext (by
    have hn := n.isLt; have hk := k.isLt
    match a with
    | ⟨0, _⟩ =>
      show ((n.val * 8192 + k.val) / 128 % 64 * 8192 + (n.val * 8192 + k.val) / 8192) / 8192 = k.val / 128
      omega
    | ⟨1, _⟩ =>
      show ((n.val * 8192 + k.val) / 128 % 64 * 8192 + (n.val * 8192 + k.val) / 8192) / 1 % 8192 = n.val
      omega
    | ⟨2, _⟩ => rfl)

/-- The zero point read for entry (k, n): the table at (group of k, n, 1). -/
theorem zero_index (p : Fin 64) (n k : Fin 8192) :
    idx_main_v6 (idx_main_v7 (idx_main_v8 (idx_main_v9 (idx_main_v14 (idx_main_v16 (idx_main_v17 (ridx_main_v18 (ix2 p n) k)))))))
      = ix3 (grp k) n (1 : Fin 2) :=
  funext fun a => Fin.ext (by
    have hn := n.isLt; have hk := k.isLt
    match a with
    | ⟨0, _⟩ =>
      show ((n.val * 8192 + k.val) / 128 % 64 * 8192 + (n.val * 8192 + k.val) / 8192) / 8192 = k.val / 128
      omega
    | ⟨1, _⟩ =>
      show ((n.val * 8192 + k.val) / 128 % 64 * 8192 + (n.val * 8192 + k.val) / 8192) / 1 % 8192 = n.val
      omega
    | ⟨2, _⟩ => rfl)

/-- The reference's result, as a function of its three argument arrays, is the quantized linear layer. -/
theorem ref_eq (x0 : (⟨S64x8192, .f32⟩ : BufTy).Contents (Elt Ideal)) (x1 : (⟨S8192x8192, .i32⟩ : BufTy).Contents (Elt Ideal))
    (x2 : (⟨S64x8192x2, .f32⟩ : BufTy).Contents (Elt Ideal)) :
    val_main_v18 (F := Ideal) x0 x1 x2 = woq x0 x1 x2 := by
  funext i
  obtain ⟨p, n, rfl⟩ : ∃ (p : Fin 64) (n : Fin 8192), i = ix2 p n := ⟨i 0, i 1, eq_ix2 i⟩
  rw [val_main_v18_apply]
  show _ = ∑ k : Fin 8192, x0 (ix2 p k) * wAt x1 x2 n k
  refine Finset.sum_congr rfl fun k _ => ?_
  rw [act_index, val_main_v17_apply, val_main_v16_apply, val_main_v15_apply, val_main_v13_apply, val_main_v11_apply,
    val_main_v1_apply, val_main_v0_apply, val_main_v10_apply, val_main_cst_apply, val_main_v12_apply, val_main_v5_apply,
    val_main_v4_apply, val_main_v3_apply, val_main_v2_apply, val_main_v14_apply, val_main_v9_apply, val_main_v8_apply,
    val_main_v7_apply, val_main_v6_apply, code_index, scale_index, zero_index]
  rfl

end Cert.ReferenceIdeal.RefValue

end
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.KernelChunk.lean ====
/-
  One chunk of the kernel's body: 2048 consecutive input features, that is 16 groups of 128.

  For a tile of 256 output features the body holds the tile's scales and zero points as [256, 64] arrays (one column per
  group) and the activations as [64, 8192]. For the chunk starting at input feature k0 = 128 * g0 it loads the tile's
  codes q of that chunk as [256, 2048], views them as [256, 16, 128], subtracts 8, multiplies by columns g0 … g0 + 15 of
  the scales and adds the same columns of the zero points (each column repeated along the 128 positions of its group),
  views the result as [256, 2048] again, and multiplies columns k0 … k0 + 2047 of the activations with it on the matrix
  unit, contracting the chunk's 2048 positions, into a zero accumulator.

  Read at an index: the weight tile at (e, j) is the dequantized weight from the code q(e, j) and column g0 + j / 128 of
  the scales and zero points; the product at (p, e) is the sum over j < 2048 of x(p, k0 + j) times that weight.
-/
import proofs.«150516_j15668040696350_2_alg».proof.Proof.Gen.KernelIdeal
import proofs.«150516_j15668040696350_2_alg».proof.Proof.LibRowOps
import proofs.«150516_j15668040696350_2_alg».proof.Proof.WoqSpec
import Idealize.ShloMosaic.Lib.Pipeline.Value
import Idealize.ShloMosaic.Lib.ValueIdx

noncomputable section

namespace Cert.KernelIdeal.KValue

open Cert.KernelIdeal Cert.KernelIdeal.Gen
open Idealize.ShloMosaic Idealize.ShloMosaic.ValueIdx Cert.Woq Cert.RowOps

/-- The chunk's dequantized weights as a [256, 2048] tile, exactly as the body computes it from the tile's scales
    `sc`, zero points `zp` and the chunk's codes `q`, for the chunk whose first group is g0. -/
def wTile (sc zp : FVec Ideal S256x64 .f32) (q : Vec Ideal S256x2048 .i32) (g0 : ℕ) (hs : S256x64.Slices ![0, g0] S256x16) :
    FVec Ideal S256x2048 .bf16 :=
  truncf .bf16 (shapeCast S256x2048 (addf (mulf (subf (shapeCast S256x16x128 (sitofp .f32 q) shapeCasts_S256x2048_S256x16x128)
      (broadcast S256x16x128 (Scalar.ofBits (F := Ideal) .f32 0x41000000#32)))
      (broadcastTo S256x16x128 (shapeCast S256x16x1 (extractStridedSlice S256x16 ![0, g0] sc hs) shapeCasts_S256x16_S256x16x1) broadcasts_S256x16x1_S256x16x128))
      (broadcastTo S256x16x128 (shapeCast S256x16x1 (extractStridedSlice S256x16 ![0, g0] zp hs) shapeCasts_S256x16_S256x16x1) broadcasts_S256x16x1_S256x16x128))
    shapeCasts_S256x16x128_S256x2048) bitsLt_bf16_f32

/-- A per-group column of the tile (scales or zero points), sliced to the chunk's 16 groups, given a trailing unit
    axis and repeated along the 128 positions of a group, reads column g0 + g at (e, g, r). -/
theorem groupColumn_apply (v : FVec Ideal S256x64 .f32) (g0 : ℕ) (hs : S256x64.Slices ![0, g0] S256x16) (hg : g0 + 16 ≤ 64)
    (e : Fin 256) (g : Fin 16) (r : Fin 128) :
    broadcastTo S256x16x128 (shapeCast S256x16x1 (extractStridedSlice S256x16 ![0, g0] v hs) shapeCasts_S256x16_S256x16x1)
        broadcasts_S256x16x1_S256x16x128 (ix3 e g r)
      = v (ix2 e ⟨g0 + g.val, by have := g.isLt; omega⟩) := by
  refine (broadcastTo_apply _ broadcasts_S256x16x1_S256x16x128 (ix3 e g r) (ix3 e g (0 : Fin 1)) (fun a => ?_)).trans ?_
  · match a with
    | ⟨0, _⟩ => show e.val = if (256 : Nat) = 1 then 0 else e.val; rw [if_neg (by decide)]
    | ⟨1, _⟩ => show g.val = if (16 : Nat) = 1 then 0 else g.val; rw [if_neg (by decide)]
    | ⟨2, _⟩ => show 0 = if (1 : Nat) = 1 then 0 else r.val; rw [if_pos rfl]
  refine (shapeCast_apply _ shapeCasts_S256x16_S256x16x1 (ix3 e g (0 : Fin 1)) (ix2 e g) ?_).trans ?_
  · rw [Shape.rowMajor_val_two, Shape.rowMajor_val_three]
    show e.val * 16 + g.val = (e.val * 16 + g.val) * 1 + 0
    omega
  exact extractStridedSlice_apply ![0, g0] v hs (ix2 e g) (ix2 e ⟨g0 + g.val, by have := g.isLt; omega⟩) (fun a =>
    match a with
    | ⟨0, _⟩ => by show e.val = 0 + e.val; omega
    | ⟨1, _⟩ => by show g0 + g.val = g0 + g.val; rfl)

/-- The weight tile at output feature e of the tile and position j of the chunk: the dequantized weight from the code
    q(e, j) and the scale and zero point of group g0 + j / 128. -/
theorem wTile_apply (sc zp : FVec Ideal S256x64 .f32) (q : Vec Ideal S256x2048 .i32) (g0 : ℕ)
    (hs : S256x64.Slices ![0, g0] S256x16) (hg : g0 + 16 ≤ 64) (e : Fin 256) (j : Fin 2048) :
    wTile sc zp q g0 hs (ix2 e j)
      = weight (q (ix2 e j)) (sc (ix2 e ⟨g0 + j.val / 128, by have := j.isLt; omega⟩))
          (zp (ix2 e ⟨g0 + j.val / 128, by have := j.isLt; omega⟩)) := by
  have hj := j.isLt
  unfold wTile
  refine (truncf_apply _ bitsLt_bf16_f32 (ix2 e j)).trans ?_
  refine (shapeCast_apply _ shapeCasts_S256x16x128_S256x2048 (ix2 e j)
    (ix3 e (⟨j.val / 128, by omega⟩ : Fin 16) (⟨j.val % 128, by omega⟩ : Fin 128)) ?_).trans ?_
  · rw [Shape.rowMajor_val_three, Shape.rowMajor_val_two]
    show (e.val * 16 + j.val / 128) * 128 + j.val % 128 = e.val * 2048 + j.val
    omega
  have eq : shapeCast S256x16x128 (sitofp (F := Ideal) .f32 q) shapeCasts_S256x2048_S256x16x128
        (ix3 e (⟨j.val / 128, by omega⟩ : Fin 16) (⟨j.val % 128, by omega⟩ : Fin 128))
      = FloatOps.sitofp (F := Ideal) .f32 (q (ix2 e j)) :=
    shapeCast_apply _ shapeCasts_S256x2048_S256x16x128 _ (ix2 e j) (by
      rw [Shape.rowMajor_val_three, Shape.rowMajor_val_two]
      show e.val * 2048 + j.val = (e.val * 16 + j.val / 128) * 128 + j.val % 128
      omega)
  show FloatOps.addf (FloatOps.mulf (FloatOps.subf (shapeCast S256x16x128 _ _ _) _) (broadcastTo S256x16x128 _ _ _))
      (broadcastTo S256x16x128 _ _ _) = _
  rw [eq, groupColumn_apply sc g0 hs hg, groupColumn_apply zp g0 hs hg]
  rfl

/-- The chunk's product on the matrix unit: columns k0 … k0 + 2047 of the activations against a [256, 2048] weight
    tile, contracting the 2048 positions, into a zero accumulator. -/
def chunkDot (x : FVec Ideal S64x8192 .bf16) (w : FVec Ideal S256x2048 .bf16) (k0 : ℕ) (hx : S64x8192.Slices ![0, k0] S64x2048) :
    FVec Ideal S64x256 .f32 :=
  matmul dot_S64x2048_S256x2048_S64x256_1_1_0_0_n_n none (extractStridedSlice S64x2048 ![0, k0] x hx) w
    (constant S64x256 .f32 0x00000000#32)

/-- At (p, e) it is the inner product of positions k0 … k0 + 2047 of row p of the activations with row e of the tile. -/
theorem chunkDot_apply (x : FVec Ideal S64x8192 .bf16) (w : FVec Ideal S256x2048 .bf16) (k0 : ℕ)
    (hx : S64x8192.Slices ![0, k0] S64x2048) (hk : k0 + 2048 ≤ 8192) (p : Fin 64) (e : Fin 256) :
    chunkDot x w k0 hx (ix2 p e)
      = ∑ j : Fin 2048, x (ix2 p ⟨k0 + j.val, by have := j.isLt; omega⟩) * w (ix2 e j) := by
  unfold chunkDot
  refine ((Ideal.matmul_constant_zero_apply dot_S64x2048_S256x2048_S64x256_1_1_0_0_n_n none _ w (ix2 p e)).trans
    (contraction_rows dot_S64x2048_S256x2048_S64x256_1_1_0_0_n_n_wf _ w p e)).trans ?_
  refine Finset.sum_congr rfl fun j _ => congrArg (· * w (ix2 e j)) ?_
  exact extractStridedSlice_apply ![0, k0] x hx (ix2 p j) (ix2 p ⟨k0 + j.val, by have := j.isLt; omega⟩) (fun a =>
    match a with
    | ⟨0, _⟩ => by show p.val = 0 + p.val; omega
    | ⟨1, _⟩ => by show k0 + j.val = k0 + j.val; rfl)

end Cert.KernelIdeal.KValue

end
-- ==== Proof.KernelPayload.lean ====
/-
  What the kernel's body stores for one tile of 256 output features, read at an index.

  The body's one store holds ((((0 + c0) + c1) + c2) + c3), where c0 … c3 are the four chunk products of KernelChunk
  for the chunks starting at input features 0, 2048, 4096, 6144 (groups 0, 16, 32, 48), each computed from the tile's
  codes loaded at the chunk's columns. At (p, e) chunk c contributes the 2048 consecutive terms
  x(p, k) * w(e, k), k = 2048 c … 2048 c + 2047, of the inner product of row p of the activations with the weights of
  the tile's output feature e; so by the chunk law of WoqSpec the stored value is the whole inner product.
-/
import proofs.«150516_j15668040696350_2_alg».proof.Proof.Gen.KernelIdeal.Frame
import proofs.«150516_j15668040696350_2_alg».proof.Proof.KernelChunk

noncomputable section

namespace Cert.KernelIdeal.KValue

open Cert.KernelIdeal Cert.KernelIdeal.Gen
open Idealize.ShloMosaic Idealize.ShloMosaic.ValueIdx Cert.Woq

theorem offsets_zero : (![0, 0] : Fin 2 → Nat) = fun _ => 0 := funext fun a => by fin_cases a <;> rfl

/-- The term of the inner product at input feature k, for row p of the activations `x0` and output feature e of a
    tile with codes `x1`, scales `x2` and zero points `x3`. -/
def term (x0 : S64x8192.Idx → EReal) (x1 : S256x8192.Idx → BitVec 32) (x2 x3 : S256x64.Idx → EReal)
    (p : Fin 64) (e : Fin 256) (k : Fin 8192) : EReal :=
  x0 (ix2 p k) * weight (x1 (ix2 e k)) (x2 (ix2 e (grp k))) (x3 (ix2 e (grp k)))

/-- The tile's scales, zero points and the activations pass through a cast to their own shape unchanged. -/
theorem pay2_eq (v0 : Vec Ideal S256x64 .f32) : k0_pay2 v0 = v0 := shapeCast_self _ _
theorem pay3_eq (v2 : Vec Ideal S256x64 .f32) : k0_pay3 v2 = v2 := shapeCast_self _ _
theorem pay4_eq (v4 : Vec Ideal S64x8192 .bf16) : k0_pay4 v4 = v4 := shapeCast_self _ _

/-- The running total after the first two chunks. -/
theorem pay5_eq (v0 v2 : Vec Ideal S256x64 .f32) (v4 : Vec Ideal S64x8192 .bf16) (v7 v25 : Vec Ideal S256x2048 .i32) :
    k0_pay5 v0 v2 v4 v7 v25
      = addf (addf (broadcast S64x256 (Scalar.ofBits (F := Ideal) .f32 0x00000000#32))
          (chunkDot (k0_pay4 v4) (wTile (k0_pay2 v0) (k0_pay3 v2) v7 0 slices_S256x64_o0_0_S256x16) 0 slices_S64x8192_o0_0_S64x2048))
          (chunkDot (k0_pay4 v4) (wTile (k0_pay2 v0) (k0_pay3 v2) v25 16 slices_S256x64_o0_16_S256x16) 2048 slices_S64x8192_o0_2048_S64x2048) :=
  rfl

/-- The stored value: the running total plus the last two chunks. -/
theorem pay1_eq (v1 v3 : FVec Ideal S256x64 .f32) (v5 : FVec Ideal S64x8192 .bf16) (v42 : FVec Ideal S64x256 .f32)
    (v43 v61 : Vec Ideal S256x2048 .i32) :
    k0_pay1 v1 v3 v5 v42 v43 v61
      = addf (addf v42 (chunkDot v5 (wTile v1 v3 v43 32 slices_S256x64_o0_32_S256x16) 4096 slices_S64x8192_o0_4096_S64x2048))
          (chunkDot v5 (wTile v1 v3 v61 48 slices_S256x64_o0_48_S256x16) 6144 slices_S64x8192_o0_6144_S64x2048) :=
  rfl

/-- One chunk's product, with the chunk's codes loaded from columns k0 … k0 + 2047 of the tile's code block, at (p, e):
    the chunk of the inner product's terms that starts at k0 = 128 * g0. -/
theorem chunk_value (x0 : Vec Ideal S64x8192 .bf16) (x1 : Vec Ideal S256x8192 .i32) (x2 x3 : Vec Ideal S256x64 .f32)
    (k0 g0 : ℕ) (hk : k0 + 2048 ≤ 8192) (hgk : g0 * 128 = k0)
    (hs : S256x64.Slices ![0, g0] S256x16) (hx : S64x8192.Slices ![0, k0] S64x2048)
    (inb : ∀ a, (![0, k0] : Fin 2 → Nat) a + S256x2048.size a ≤ S256x8192.size a) (p : Fin 64) (e : Fin 256) :
    chunkDot x0 (wTile x2 x3 (View.ld x1 (Rect.unit (s := S256x8192) ![0, k0] S256x2048.size inb)) g0 hs) k0 hx (ix2 p e)
      = chunk (term x0 x1 x2 x3 p e) k0 hk := by
  rw [chunkDot_apply x0 _ k0 hx hk p e]
  unfold chunk
  refine Finset.sum_congr rfl fun j _ => ?_
  have hj := j.isLt
  rw [wTile_apply x2 x3 _ g0 hs (by omega) e j]
  unfold term
  have hq : View.ld x1 (Rect.unit (s := S256x8192) ![0, k0] S256x2048.size inb) (ix2 e j)
      = x1 (ix2 e (⟨k0 + j.val, by omega⟩ : Fin 8192)) :=
    congrArg x1 (funext fun a => Fin.ext (
      match a with
      | ⟨0, _⟩ => by show 0 + 1 * e.val = e.val; omega
      | ⟨1, _⟩ => by show k0 + 1 * j.val = k0 + j.val; omega))
  have hg : (⟨g0 + j.val / 128, by omega⟩ : Fin 64) = grp (⟨k0 + j.val, by omega⟩ : Fin 8192) :=
    Fin.ext (by show g0 + j.val / 128 = (k0 + j.val) / 128; omega)
  rw [hq, hg]

/-- The block the body stores for a tile, at row p and the tile's output feature e: the whole inner product. -/
theorem out_apply (x0 : Vec Ideal S64x8192 .bf16) (x1 : Vec Ideal S256x8192 .i32) (x2 x3 : Vec Ideal S256x64 .f32)
    (p : Fin 64) (e : Fin 256) :
    out0_4 x0 x1 x2 x3 (ix2 p e) = ∑ k : Fin 8192, term x0 x1 x2 x3 p e k := by
  unfold out0_4
  rw [View.canon_unit_zero offsets_zero]
  simp only [View.ld_unit_zero (S := S256x64) offsets_zero, View.ld_unit_zero (S := S64x8192) offsets_zero]
  rw [pay1_eq, pay5_eq, pay2_eq, pay3_eq, pay4_eq]
  have hz0 : Scalar.ofBits (F := Ideal) .f32 0x00000000#32 = (0 : EReal) := Ideal.ofBits_zero_f32
  refine Eq.trans ?_ (sum_four_chunks (term x0 x1 x2 x3 p e))
  rw [addf_apply, addf_apply, addf_apply, addf_apply, broadcast_apply, hz0,
    chunk_value x0 x1 x2 x3 0 0 (by decide) rfl slices_S256x64_o0_0_S256x16 slices_S64x8192_o0_0_S64x2048
      inb_S256x8192_S256x2048_0_0 p e,
    chunk_value x0 x1 x2 x3 2048 16 (by decide) rfl slices_S256x64_o0_16_S256x16 slices_S64x8192_o0_2048_S64x2048
      inb_S256x8192_S256x2048_0_2048 p e,
    chunk_value x0 x1 x2 x3 4096 32 (by decide) rfl slices_S256x64_o0_32_S256x16 slices_S64x8192_o0_4096_S64x2048
      inb_S256x8192_S256x2048_0_4096 p e,
    chunk_value x0 x1 x2 x3 6144 48 (by decide) rfl slices_S256x64_o0_48_S256x16 slices_S64x8192_o0_6144_S64x2048
      inb_S256x8192_S256x2048_0_6144 p e]

end Cert.KernelIdeal.KValue

end
-- ==== Proof.KernelHost.lean ====
/-
  What the kernel's region finds in the three arrays the host prepares before it.

  Before the region the host takes the scales out of the table sz (its entries (g, n, 0)), drops the unit axis and
  exchanges the two remaining axes, so that the scales lie as [output feature, group]: entry (n, g) is sz(g, n, 0). It does
  the same for the zero points, sz(g, n, 1). And it changes the float format of the activations, which on the extended
  reals is the identity. The codes are passed to the region as they are.
-/
import proofs.«150516_j15668040696350_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo

/-- One component of the table (the scales at o = 0, the zero points at o = 1), sliced out, with the unit axis dropped
    and the two axes exchanged, reads the table at (g, n, o) at its entry (n, g). -/
theorem component_apply (X : S64x8192x2.Idx → EReal) (o : ℕ) (ho : o < 2) (hsl : S64x8192x2.Slices ![0, 0, o] S64x8192x1)
    (n : Fin 8192) (g : Fin 64) :
    transpose S8192x64 [1, 0] (shapeCast S64x8192 (extractStridedSlice S64x8192x1 ![0, 0, o] X hsl) shapeCasts_S64x8192x1_S64x8192)
        transposes_S64x8192_S8192x64_1_0 (ix2 n g)
      = X (ix3 g n (⟨o, ho⟩ : Fin 2)) := by
  refine (transpose_apply [1, 0] _ transposes_S64x8192_S8192x64_1_0 (ix2 n g) (ix2 g n) (fun b =>
    match b with
    | ⟨0, _⟩ => rfl
    | ⟨1, _⟩ => rfl)).trans ?_
  refine (shapeCast_apply _ shapeCasts_S64x8192x1_S64x8192 (ix2 g n) (ix3 g n (0 : Fin 1)) ?_).trans ?_
  · rw [Shape.rowMajor_val_three, Shape.rowMajor_val_two]
    show (g.val * 8192 + n.val) * 1 + 0 = g.val * 8192 + n.val
    omega
  exact extractStridedSlice_apply ![0, 0, o] X hsl (ix3 g n (0 : Fin 1)) (ix3 g n (⟨o, ho⟩ : Fin 2)) (fun a =>
    match a with
    | ⟨0, _⟩ => by show g.val = 0 + g.val; omega
    | ⟨1, _⟩ => by show n.val = 0 + n.val; omega
    | ⟨2, _⟩ => by show o = o + 0; omega)

variable (m : (ℓ : Loc nD τ sig) → Buf (Elt Ideal) ℓ)

/-- The region finds the scales laid out as [output feature, group]. -/
theorem V_scales (c : Dev nD) (n : Fin 8192) (g : Fin 64) :
    (V m c main_v2 : S8192x64.Idx → EReal) (ix2 n g)
      = (m ((c : Thread nD τ).loc main_arg2) : S64x8192x2.Idx → EReal) (ix3 g n (0 : Fin 2)) := by
  have e : (V m c main_v2 : S8192x64.Idx → EReal)
      = transpose S8192x64 [1, 0] (shapeCast S64x8192 (extractStridedSlice S64x8192x1 ![0, 0, 0]
          (m ((c : Thread nD τ).loc main_arg2) : S64x8192x2.Idx → EReal) slices_S64x8192x2_S64x8192x1_0_0_0)
          shapeCasts_S64x8192x1_S64x8192) transposes_S64x8192_S8192x64_1_0 := by
    dsimp only [Gen.V, Gen.hostOps0]; after_results <;> rfl
  rw [e]
  exact component_apply _ 0 (by decide) slices_S64x8192x2_S64x8192x1_0_0_0 n g

/-- The region finds the zero points laid out as [output feature, group]. -/
theorem V_zeros (c : Dev nD) (n : Fin 8192) (g : Fin 64) :
    (V m c main_v5 : S8192x64.Idx → EReal) (ix2 n g)
      = (m ((c : Thread nD τ).loc main_arg2) : S64x8192x2.Idx → EReal) (ix3 g n (1 : Fin 2)) := by
  have e : (V m c main_v5 : S8192x64.Idx → EReal)
      = transpose S8192x64 [1, 0] (shapeCast S64x8192 (extractStridedSlice S64x8192x1 ![0, 0, 1]
          (m ((c : Thread nD τ).loc main_arg2) : S64x8192x2.Idx → EReal) slices_S64x8192x2_S64x8192x1_0_0_1)
          shapeCasts_S64x8192x1_S64x8192) transposes_S64x8192_S8192x64_1_0 := by
    dsimp only [Gen.V, Gen.hostOps0]; after_results <;> rfl
  rw [e]
  exact component_apply _ 1 (by decide) slices_S64x8192x2_S64x8192x1_0_0_1 n g

/-- The region finds the activations themselves: a change of float format is the identity on the extended reals. -/
theorem V_acts (c : Dev nD) (i : S64x8192.Idx) :
    (V m c main_v6 : S64x8192.Idx → EReal) i = (m ((c : Thread nD τ).loc main_arg0) : S64x8192.Idx → EReal) i := by
  have e : @Eq (S64x8192.Idx → EReal) (V m c main_v6)
      (truncf (F := Ideal) (s := S64x8192) (φ := .f32) .bf16 (m ((c : Thread nD τ).loc main_arg0)) bitsLt_bf16_f32) := by
    dsimp only [Gen.V, Gen.hostOps0]; after_results <;> rfl
  rw [e]
  rfl

end Cert.KernelIdeal.KValue

end
-- ==== Proof.KernelBlocks.lean ====
/-
  From tiles to the whole output array.

  The kernel runs over 32 grid points; point t works on the tile of output features 256 t … 256 t + 255. It is handed
  the whole activations, rows 256 t … of the codes, of the scales and of the zero points (as the region finds them:
  KernelHost), and writes back columns 256 t … 256 t + 255 of the [64, 8192] output. By KernelPayload the block it
  writes holds, at (p, e), the inner product of row p of the activations with the weights of the tile's output feature
  e — and the tile's rows of the codes, scales and zero points are those of output feature 256 t + e, so this is the
  quantized linear layer of WoqSpec at (p, 256 t + e). The 32 column blocks tile the output array (column n lies in
  block n / 256), so after the run the output array is the layer's output.
-/
import proofs.«150516_j15668040696350_2_alg».proof.Proof.Gen.KernelIdeal.Value
import proofs.«150516_j15668040696350_2_alg».proof.Proof.KernelPayload
import proofs.«150516_j15668040696350_2_alg».proof.Proof.KernelHost

noncomputable section

namespace Cert.KernelIdeal.KValue

open Cert.KernelIdeal Cert.KernelIdeal.Gen
open Idealize.ShloMosaic Idealize.ShloMosaic.TcCoe Idealize.ShloMosaic.ValueIdx Idealize.SL.Sem Cert.Woq
open Idealize.ShloMosaic.Pipeline (Dat)

variable (m : (ℓ : Loc nD τ sig) → Buf (Elt Ideal) ℓ) (ρ : Dev nD → PrngReg)

/-- The block index of each window at grid point t: the activations are one block; the codes, scales and zero points
    move down one block of 256 rows per point; the output moves right one block of 256 columns per point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

theorem point_lt (t : Fin cfg0.N) : t.val < 32 := lt_of_lt_of_eq t.isLt N_0

/-- The output feature that is number e of tile t. -/
def tileRow (t : Fin cfg0.N) (e : Fin 256) : Fin 8192 :=
  ⟨t.val * 256 + e.val, by have := point_lt t; have := e.isLt; omega⟩

/-- The activations' block at any point is the activations. -/
theorem acts_block (c : Dev nD) (t : Fin cfg0.N) (p : Fin 64) (k : Fin 8192) :
    iblk m c 0 t (ix2 p k) = (m ((c : Thread nD τ).loc main_arg0) : S64x8192.Idx → EReal) (ix2 p k) := by
  refine Eq.trans ?_ (V_acts m c (ix2 p k))
  show V m c main_v6 (((cfg0.win 0).blk t).view.emb (ix2 p k)) = V m c main_v6 (ix2 p k)
  refine congrArg _ (funext fun a => Fin.ext ?_)
  obtain ⟨e0, e1, -⟩ := idx_facts t
  match a with
  | ⟨0, _⟩ => show win0_0.index t (0 : Fin 2) * 64 + 1 * p.val = p.val; omega
  | ⟨1, _⟩ => show win0_0.index t (1 : Fin 2) * 8192 + 1 * k.val = k.val; omega

/-- Row e of the codes' block at point t is the codes' row of output feature 256 t + e. -/
theorem codes_block (c : Dev nD) (t : Fin cfg0.N) (e : Fin 256) (k : Fin 8192) :
    iblk m c 1 t (ix2 e k) = (m ((c : Thread nD τ).loc main_arg1) : S8192x8192.Idx → BitVec 32) (ix2 (tileRow t e) k) := by
  refine Eq.trans ?_ (congrFun (V_main_arg1 m c) (ix2 (tileRow t e) k))
  show V m c main_arg1 (((cfg0.win 1).blk t).view.emb (ix2 e k)) = V m c main_arg1 (ix2 (tileRow t e) k)
  refine congrArg _ (funext fun a => Fin.ext ?_)
  obtain ⟨-, -, e2, e3, -⟩ := idx_facts t
  match a with
  | ⟨0, _⟩ => show win0_1.index t (0 : Fin 2) * 256 + 1 * e.val = t.val * 256 + e.val; omega
  | ⟨1, _⟩ => show win0_1.index t (1 : Fin 2) * 8192 + 1 * k.val = k.val; omega

/-- Row e of the scales' block at point t holds the scales of output feature 256 t + e, one per group. -/
theorem scales_block (c : Dev nD) (t : Fin cfg0.N) (e : Fin 256) (g : Fin 64) :
    iblk m c 2 t (ix2 e g)
      = (m ((c : Thread nD τ).loc main_arg2) : S64x8192x2.Idx → EReal) (ix3 g (tileRow t e) (0 : Fin 2)) := by
  refine Eq.trans ?_ (V_scales m c (tileRow t e) g)
  show V m c main_v2 (((cfg0.win 2).blk t).view.emb (ix2 e g)) = V m c main_v2 (ix2 (tileRow t e) g)
  refine congrArg _ (funext fun a => Fin.ext ?_)
  obtain ⟨-, -, -, -, e4, e5, -⟩ := idx_facts t
  match a with
  | ⟨0, _⟩ => show win0_2.index t (0 : Fin 2) * 256 + 1 * e.val = t.val * 256 + e.val; omega
  | ⟨1, _⟩ => show win0_2.index t (1 : Fin 2) * 64 + 1 * g.val = g.val; omega

/-- Row e of the zero points' block at point t holds the zero points of output feature 256 t + e, one per group. -/
theorem zeros_block (c : Dev nD) (t : Fin cfg0.N) (e : Fin 256) (g : Fin 64) :
    iblk m c 3 t (ix2 e g)
      = (m ((c : Thread nD τ).loc main_arg2) : S64x8192x2.Idx → EReal) (ix3 g (tileRow t e) (1 : Fin 2)) := by
  refine Eq.trans ?_ (V_zeros m c (tileRow t e) g)
  show V m c main_v5 (((cfg0.win 3).blk t).view.emb (ix2 e g)) = V m c main_v5 (ix2 (tileRow t e) g)
  refine congrArg _ (funext fun a => Fin.ext ?_)
  obtain ⟨-, -, -, -, -, -, e6, e7, -⟩ := idx_facts t
  match a with
  | ⟨0, _⟩ => show win0_3.index t (0 : Fin 2) * 256 + 1 * e.val = t.val * 256 + e.val; omega
  | ⟨1, _⟩ => show win0_3.index t (1 : Fin 2) * 64 + 1 * g.val = g.val; omega

/-- What point t's body stores, at row p and the tile's output feature e: the layer's output at (p, 256 t + e). -/
theorem tile_value (c : Dev nD) (t : Fin cfg0.N) (p : Fin 64) (e : Fin 256) :
    out0_4 (iblk m c 0 t) (iblk m c 1 t) (iblk m c 2 t) (iblk m c 3 t) (ix2 p e)
      = woqAt (m ((c : Thread nD τ).loc main_arg0)) (m ((c : Thread nD τ).loc main_arg1)) (m ((c : Thread nD τ).loc main_arg2))
          p (tileRow t e) := by
  refine (out_apply (iblk m c 0 t) (iblk m c 1 t) (iblk m c 2 t) (iblk m c 3 t) p e).trans ?_
  unfold woqAt
  refine Finset.sum_congr rfl fun k _ => ?_
  unfold term wAt
  rw [acts_block m c t p k, codes_block m c t e k, scales_block m c t e (grp k), zeros_block m c t e (grp k)]

/-- WHAT POINT t WRITES BACK is block t of the layer's output. -/
theorem flushed_eq (c : Dev nD) (t : Fin cfg0.N) :
    (dats m 0 c).flushed 4 t = ((cfg0.win 4).blk t).view.read (Elt Ideal)
      (woq (m ((c : Thread nD τ).loc main_arg0)) (m ((c : Thread nD τ).loc main_arg1)) (m ((c : Thread nD τ).loc main_arg2))) := by
  rw [Cert.KernelIdeal.Value.flushed4]
  funext y
  obtain ⟨-, -, -, -, -, -, -, -, e8, e9⟩ := idx_facts t
  have hy0 : (y 0).val < 64 := (y 0).isLt
  have hy1 : (y 1).val < 256 := (y 1).isLt
  have hy : y = ix2 (⟨(y 0).val, hy0⟩ : Fin 64) (⟨(y 1).val, hy1⟩ : Fin 256) :=
    funext fun a => match a with | ⟨0, _⟩ => rfl | ⟨1, _⟩ => rfl
  show out0_4 (iblk m c 0 t) (iblk m c 1 t) (iblk m c 2 t) (iblk m c 3 t) y
    = woq (m ((c : Thread nD τ).loc main_arg0)) (m ((c : Thread nD τ).loc main_arg1)) (m ((c : Thread nD τ).loc main_arg2))
        (((cfg0.win 4).blk t).view.emb y)
  refine (congrArg (out0_4 (iblk m c 0 t) (iblk m c 1 t) (iblk m c 2 t) (iblk m c 3 t)) hy).trans ?_
  refine (tile_value m c t ⟨(y 0).val, hy0⟩ ⟨(y 1).val, hy1⟩).trans ?_
  show woqAt _ _ _ _ _ = woqAt _ _ _ ((((cfg0.win 4).blk t).view.emb y) 0) ((((cfg0.win 4).blk t).view.emb y) 1)
  refine congrArg₂ (woqAt _ _ _) (Fin.ext ?_) (Fin.ext ?_)
  · show (y 0).val = win0_4.index t (0 : Fin 2) * 64 + 1 * (y 0).val; omega
  · show t.val * 256 + (y 1).val = win0_4.index t (1 : Fin 2) * 256 + 1 * (y 1).val; omega

/-- An index of the output array is in point t's block iff each coordinate is in the block's range on its axis. -/
theorem mem_blk (t : Fin cfg0.N) (i : S64x8192.Idx) :
    i ∈ ((cfg0.win 4).blk t).view.set
      ↔ ∀ a : Fin 2, win0_4.index t a * S64x256.size a ≤ (i a).val ∧ (i a).val < win0_4.index t a * S64x256.size a + S64x256.size a := by
  show i ∈ ((View.whole main_v7).slice (win0_4.rect t)).set ↔ _
  rw [View.set_slice_whole, Rect.mem_set_unit]
  exact Iff.rfl

/-- Every entry of the output array is written: column n lies in the block of point n / 256. -/
theorem cover (i : S64x8192.Idx) :
    ∃ t : Fin cfg0.N, (cfg0.win 4).flush t = true ∧ i ∈ ((cfg0.win 4).blk t).view.set := by
  have hi0 : (i 0).val < 64 := idx2_lt0 i
  have hi1 : (i 1).val < 8192 := idx2_lt1 i
  have hN : (i 1).val / 256 < cfg0.N := by show (i 1).val / 256 < grid0.N; rw [N_0]; omega
  obtain ⟨-, -, -, -, -, -, -, -, e8, e9⟩ := idx_facts ⟨(i 1).val / 256, hN⟩
  have e9' : win0_4.index ⟨(i 1).val / 256, hN⟩ (1 : Fin 2) = (i 1).val / 256 := e9
  refine ⟨⟨(i 1).val / 256, hN⟩, flush0_4 _, ?_⟩
  rw [mem_blk]
  intro a
  match a with
  | ⟨0, _⟩ =>
    show win0_4.index ⟨(i 1).val / 256, hN⟩ (0 : Fin 2) * 64 ≤ (i 0).val
      ∧ (i 0).val < win0_4.index ⟨(i 1).val / 256, hN⟩ (0 : Fin 2) * 64 + 64
    omega
  | ⟨1, _⟩ =>
    show win0_4.index ⟨(i 1).val / 256, hN⟩ (1 : Fin 2) * 256 ≤ (i 1).val
      ∧ (i 1).val < win0_4.index ⟨(i 1).val / 256, hN⟩ (1 : Fin 2) * 256 + 256
    omega

/-- THE OUTPUT ARRAY after the run is the quantized linear layer of the argument arrays. -/
theorem final (c : Dev nD) :
    (dats m 0 c).arrAt 4 cfg0.N
      = woq (m ((c : Thread nD τ).loc main_arg0)) (m ((c : Thread nD τ).loc main_arg1)) (m ((c : Thread nD τ).loc main_arg2)) :=
  (dats m 0 c).arrAt_eq_of_cover 4 _ (fun t _ => flushed_eq m c t) cover

/-- The kernel's run: every weakly fair execution terminates with the result array at the layer's output of the
    arguments, and the arguments unchanged. -/
theorem run : θ_run defs (onTc (τ := τ) (main (F := Ideal))) ⟨m, fun _ => 0, ρ⟩ fun r => ∀ c : Dev nD,
      r.2.mem ((c : Thread nD τ).loc main_v7)
        = woq (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.KValue

end
-- ==== Proof.lean ====
/-
  The kernel and its reference compute the same quantized linear layer on the extended reals.

  Both programs take activations x [64, 8192], integer weight codes q [8192, 8192] and a table sz [64, 8192, 2] of one
  scale and one zero point per group of 128 input features and output feature, and return

      out(p, n) = sum over k < 8192 of x(p, k) * ((q(n, k) - 8) * sz(k / 128, n, 0) + sz(k / 128, n, 1)).

  The reference forms the whole dequantized weight matrix and takes one dot product with the activations. The kernel
  works on 32 tiles of 256 output features; for each tile it cuts the 8192 input features into four chunks of 2048,
  dequantizes the chunk's weights, multiplies on the matrix unit into a zero accumulator, and adds the four products
  in order onto zero. Changes of float format are the identity on the extended reals, a matrix product is the exact sum
  of products, and a sum may be cut into consecutive chunks added in order: addition on the extended reals is
  commutative and associative with unit 0 also at the infinities, so the two results agree for all inputs and the
  precondition (finite inputs) is not used.

  WoqSpec states the layer and the chunk law; RefIsWoq reads the reference's stages at an index; KernelChunk reads one
  chunk of the kernel's body at an index; KernelPayload adds the four chunks; KernelHost reads the arrays the host
  prepares for the kernel; KernelBlocks goes from the 32 column blocks to the whole output array.
-/
import proofs.«150516_j15668040696350_2_alg».proof.Defs
import proofs.«150516_j15668040696350_2_alg».proof.Proof.Gen.Kernel
import proofs.«150516_j15668040696350_2_alg».proof.Proof.Gen.Kernel.Skeleton
import proofs.«150516_j15668040696350_2_alg».proof.Proof.Gen.Kernel.Launch
import proofs.«150516_j15668040696350_2_alg».proof.Proof.Gen.Kernel.Points
import proofs.«150516_j15668040696350_2_alg».proof.Proof.Gen.Kernel.Frame
import proofs.«150516_j15668040696350_2_alg».proof.Proof.Gen.KernelIdeal
import proofs.«150516_j15668040696350_2_alg».proof.Proof.Gen.KernelIdeal.Skeleton
import proofs.«150516_j15668040696350_2_alg».proof.Proof.Gen.KernelIdeal.Launch
import proofs.«150516_j15668040696350_2_alg».proof.Proof.Gen.KernelIdeal.Points
import proofs.«150516_j15668040696350_2_alg».proof.Proof.Gen.KernelIdeal.Frame
import proofs.«150516_j15668040696350_2_alg».proof.Proof.Gen.ReferenceIdeal
import proofs.«150516_j15668040696350_2_alg».proof.Proof.Gen.Pre_finite_inputs
import proofs.«150516_j15668040696350_2_alg».proof.Proof.Gen.KernelIdeal.Value
import proofs.«150516_j15668040696350_2_alg».proof.Proof.Gen.ReferenceIdeal.Run
import proofs.«150516_j15668040696350_2_alg».proof.Proof.Gen.ReferenceIdeal.Read
import proofs.«150516_j15668040696350_2_alg».proof.Proof.RefIsWoq
import proofs.«150516_j15668040696350_2_alg».proof.Proof.KernelBlocks
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories that agree on the three arguments, the kernel's result array and the reference's are both the
    quantized linear layer of the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
